-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S2000x128 : Shape := ⟨2, ![2000, 128]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩

abbrev nBuf : Space → Nat
  | .hbm => 77
  | .vmem => 17
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S40000x128, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S40000, .f32⟩
  | .hbm, ⟨15, _⟩ => ⟨S640000x1, .i32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S40000, .f32⟩
  | .hbm, ⟨20, _⟩ => ⟨S40000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x1, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S40000, .f32⟩
  | .hbm, ⟨57, _⟩ => ⟨S40000x1, .f32⟩
  | .hbm, ⟨58, _⟩ => ⟨S40000x128, .f32⟩
  | .hbm, ⟨59, _⟩ => ⟨S40000x128, .f32⟩
  | .hbm, ⟨60, _⟩ => ⟨S40000x128, .f32⟩
  | .hbm, ⟨61, _⟩ => ⟨S1x128, .f32⟩
  | .hbm, ⟨62, _⟩ => ⟨S40000x128, .f32⟩
  | .hbm, ⟨63, _⟩ => ⟨S40000x128, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48_0 : Ref sig .tc := ⟨.hbm, 64, rfl⟩
abbrev main_v48_1 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  reduces_S2000x128_S128 : S2000x128.Reduces [0] S128
  shapeCasts_S128_S1x128 : S128.ShapeCasts S1x128
  bcast_S_S1x128 : S_.BroadcastsInDim S1x128 (![] : Fin 0 → Fin S1x128.rank)
  broadcasts_S1x128_S2000x128 : S1x128.Broadcasts S2000x128
  dot_S2000x128_S128x128_S2000x128_1_0_0_1_n_n_wf : DotDims.WF S2000x128 S128x128 S2000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S40000x128.size a
  hwx2_5 : ∀ i : grid2.Coords, EltTy.bits .f32 = 32 ∨ (Rect.block (s := S40000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S40000x128, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S40000, .f32⟩
  | .hbm, ⟨15, _⟩ => ⟨S640000x1, .i32⟩
  | .hbm, ⟨16, _⟩ => ⟨S40000, .f32⟩
  | .hbm, ⟨17, _⟩ => ⟨S_, .f32⟩
  | .hbm, ⟨18, _⟩ => ⟨S40000, .f32⟩
  | .hbm, ⟨19, _⟩ => ⟨S40000, .f32⟩
  | .hbm, ⟨20, _⟩ => ⟨S40000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x1, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S40000, .f32⟩
  | .hbm, ⟨57, _⟩ => ⟨S40000x1, .f32⟩
  | .hbm, ⟨58, _⟩ => ⟨S40000x128, .f32⟩
  | .hbm, ⟨59, _⟩ => ⟨S40000x128, .f32⟩
  | .hbm, ⟨60, _⟩ => ⟨S40000x128, .f32⟩
  | .hbm, ⟨61, _⟩ => ⟨S1x128, .f32⟩
  | .hbm, ⟨62, _⟩ => ⟨S40000x128, .f32⟩
  | .hbm, ⟨63, _⟩ => ⟨S40000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S40000x128, .f32⟩
  | .hbm, ⟨71, _⟩ => ⟨S40000x128, .f32⟩
  | .hbm, ⟨72, _⟩ => ⟨S40000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S40000x128, .f32⟩
  | .hbm, ⟨80, _⟩ => ⟨S40000x128, .f32⟩
  | .hbm, ⟨81, _⟩ => ⟨S1x128, .f32⟩
  | .hbm, ⟨82, _⟩ => ⟨S40000x128, .f32⟩
  | .hbm, ⟨83, _⟩ => ⟨S40000x128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S40000x128, .f32⟩
  | .hbm, ⟨90, _⟩ => ⟨S40000x128, .f32⟩
  | .hbm, ⟨91, _⟩ => ⟨S1x128, .f32⟩
  | .hbm, ⟨92, _⟩ => ⟨S40000x128, .f32⟩
  | .hbm, ⟨93, _⟩ => ⟨S40000x128, .f32⟩
  | .hbm, ⟨94, _⟩ => ⟨S_, .f32⟩
  | .hbm, ⟨95, _⟩ => ⟨S40000x128, .f32⟩
  | .hbm, ⟨96, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_call0_cst : Ref sig .tc := ⟨.hbm, 94, rfl⟩
abbrev main_call0_v0 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  dot_S40000x128_S128x128_S40000x128_1_0_0_1_n_n_wf : DotDims.WF S40000x128 S128x128 S40000x128 [1] [0] [0] [1] [] []
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.KernelRun.lean ====
/-
  The idealized kernel's run with its result NAMED.  The program is three kernel regions among stretches of host
  operations; its run is the launch of those segments in order, and the thread state after the last segment holds every
  unscoped buffer at the contents `W6`, the fold of the segments' effects over the launch memory.  The frame only keeps
  the argument arrays of that state; here the result array `main_v57` is kept too, at `W6`.
-/
import proofs.«109631_j1623497638173_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents `W6` and the argument arrays end as launched. -/
theorem run_main : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.HostGlue.lean ====
/-
  The idealized kernel's buffers at the boundaries between its segments, read back to the launch memory.
  The program is: host lines (the two rows of the edge index), region 0 (h = features · weights), host lines (the graph
  aggregation of h: degrees by a scatter-add of ones, their reciprocal square roots, gathers at the two index rows, the
  scatter-add of the scaled rows of h, the self term and the bias), region 1 (column sums), host lines (mean and
  variance from the sums, the scale and shift as rows), region 2 (the normalization).
  The aggregation's host lines are, operation for operation, those of the reference program applied to h: `aggOf`.
-/
import proofs.«109631_j1623497638173_1_alg».proof.Proof.Gen.KernelIdeal.Frame
import proofs.«109631_j1623497638173_1_alg».proof.Proof.Gen.ReferenceIdeal.Read
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-- The graph aggregation as a function of the projected features `h`, the edge index and the bias: the reference
    program's own operations from its gather of `h` on (its stages that depend on the edge index alone kept by name). -/
def aggOf (h : FVec Ideal Cert.ReferenceIdeal.S40000x128 .f32) (x1 : IVec Cert.ReferenceIdeal.S2x640000 32) (x3 : FVec Ideal Cert.ReferenceIdeal.S128 .f32) :
    FVec Ideal Cert.ReferenceIdeal.S40000x128 .f32 :=
  addf (F := Ideal) (φ := .f32) (addf (F := Ideal) (φ := .f32) (Host.scatterAdd (F := Ideal) (φ := .f32) Cert.ReferenceIdeal.scatter_S40000x128_S640000x1_S640000x128_1_0_0_1 (Cert.ReferenceIdeal.Read.val_main_v37 (F := Ideal))
      (Cert.ReferenceIdeal.Read.val_main_v38 (F := Ideal) x1)
      (mulf (F := Ideal) (φ := .f32) (Host.gather Cert.ReferenceIdeal.gather_S40000x128_S640000x1_S640000x128_1_0_n_n_0_1_1128 h (Cert.ReferenceIdeal.Read.val_main_v32 (F := Ideal) x1))
        (Cert.ReferenceIdeal.Read.val_main_v35 (F := Ideal) x1)))
    (mulf (F := Ideal) (φ := .f32) h (Cert.ReferenceIdeal.Read.val_main_v42 (F := Ideal) x1))) (Cert.ReferenceIdeal.Read.val_main_v46 (F := Ideal) x3)

/-- The reference's pre-normalization array is the aggregation of ITS projected features. -/
theorem ref_out_eq (x0 : (⟨Cert.ReferenceIdeal.S40000x128, .f32⟩ : BufTy).Contents (Elt Ideal))
    (x1 : (⟨Cert.ReferenceIdeal.S2x640000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) :
    Cert.ReferenceIdeal.Read.val_main_v47 (F := Ideal) x0 x1 x2 x3 = aggOf (Cert.ReferenceIdeal.Read.val_main_v4 (F := Ideal) x0 x2) x1 x3 := rfl

variable (m : (ℓ : Loc nD τ sig) → Buf (Elt Ideal) ℓ) (ρ : Dev nD → PrngReg) (c : Dev nD)

/-- A stretch of host operations leaves a buffer none of them writes as it was. -/
macro "host_keeps" : tactic => `(tactic| exact StableHlo.after_of_forall_not_mem _ _ (List.forall_iff_forall_mem.mp (by
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-! ## Region 0's entry -/

theorem W1_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by host_keeps).trans rfl
theorem W1_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by host_keeps).trans rfl
theorem W1_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) by host_keeps).trans rfl
theorem W1_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) by host_keeps).trans rfl
theorem W1_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by host_keeps).trans rfl

/-- The source row of the edge index, as the first host lines leave it. -/
theorem W1_v1 : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results
  rfl
/-- The destination row of the edge index. -/
theorem W1_v3 : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results
  rfl

/-! ## Region 1's entry -/

theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-- The array region 1 sums: the aggregation of region 0's output. -/
theorem W3_v47 : W3 m ρ c (Proc.devRef .tc main_v47)
    = aggOf (W2 m ρ c (Proc.devRef .tc main_v4)) (m ((c : Thread nD τ).loc main_arg1)) (m ((c : Thread nD τ).loc main_arg3)) := by
  show StableHlo.after hostOps1 (W2 m ρ c) (Proc.devRef .tc main_v47) = _
  after_results_simp
  rw [W2_v1, W2_v3, W2_arg3]
  rfl

end Cert.KernelIdeal.Glue

end
-- ==== Proof.MatmulValue.lean ====
import proofs.«109631_j1623497638173_1_alg».proof.Proof.Gen.KernelIdeal.Frame
import Idealize.ShloMosaic.Lib.Pipeline.Value
import Idealize.ShloMosaic.Lib.ValueIdx
import Idealize.ShloMosaic.PureOps.Ideal.Laws

/-!
# Region 0 is a matrix product

The first region multiplies a 40000 × 128 matrix (the left operand) by a 128 × 128 matrix (the right operand),
2000 rows at a time over 20 grid points. Here the region is read as ONE function of whole arrays: after the last
point the output array holds, at (r, n), the sum over the 128 inner positions k of left (r, k) · right (k, n),
where left and right are the two argument arrays as the region found them.

The steps: one entry of a block's product is the 128-term sum (the narrowing to bf16 before the product is the
identity on extended reals, and the accumulator starts at zero); point t reads rows 2000 t … 2000 t + 1999 of the
left operand and all of the right operand and writes the same rows of the output, so what it writes is block t of
the whole product; the 20 blocks cover every row (row r lies in block r / 2000).
-/

noncomputable section

namespace Cert.KernelIdeal.MatmulValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The product, entry by entry -/

/-- The product of a 40000 × 128 matrix and a 128 × 128 matrix: entry (r, n) is the sum over the 128 inner
    positions k of A (r, k) · B (k, n). -/
abbrev matProd (A : S40000x128.Idx → EReal) (B : S128x128.Idx → EReal) : S40000x128.Idx → EReal :=
  fun i => ∑ k : Fin 128, A (ix2 (i 0) k) * B (ix2 k (i 1))

/-- The product at an entry, spelled out. -/
theorem matProd_apply (A : S40000x128.Idx → EReal) (B : S128x128.Idx → EReal) (i : S40000x128.Idx) :
    matProd A B i = ∑ k : Fin 128, A (ix2 (i 0) k) * B (ix2 k (i 1)) := rfl

/-- The three windows of the region are over the left operand, the right operand and the output. -/
theorem arr_left : Pipeline.arrRef spec0 0 = main_arg0 := rfl
theorem arr_right : Pipeline.arrRef spec0 1 = main_arg2 := rfl
theorem arr_out : Pipeline.arrRef spec0 2 = main_v4 := rfl

/-! ## One entry of a block's product -/

/-- The left factor of output entry (p, n) sits in row p of the left block: the row axis is not contracted. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The right factor of output entry (p, n) sits in column n of the right block: the column axis is not contracted. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What the body computes from a 2000 × 128 block x0 and a 128 × 128 block x1, at entry (p, n): the sum over the
    inner position k of x0 (p, k) · x1 (k, n). The contraction has one axis of extent 128, so its index set is
    re-indexed by k; the narrowing of both operands to bf16 is the identity on extended reals, and the accumulator
    the product is added to is the zero matrix. -/
theorem payload_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact rhs_col _ _)
  rw [el, er]
  rfl

/-! ## From the blocks to the whole array -/

/-- The body loads and stores its blocks whole: at offsets (0, 0). -/
theorem zero_offsets : (![0, 0] : Fin 2 → Nat) = fun _ => 0 := funext fun a => by fin_cases a <;> rfl

/-- Where the windows sit, checked over the 20 grid points: at point t the left operand's window and the output's
    window are at block row t, block column 0; the right operand's window is the whole matrix, block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A product of two entries, read at equal indices. -/
theorem term_eq (A : S40000x128.Idx → EReal) (B : S128x128.Idx → EReal) {a a' : S40000x128.Idx} {b b' : S128x128.Idx}
    (ha : a = a') (hb : b = b') : A a * B b = A a' * B b' := by rw [ha, hb]

section
variable (V : (c : Dev nD) → (b : Ref sig .tc) → Buf (Elt Ideal) ((c : Thread nD τ).loc b))

/-- What point t writes back is block t of the product of the two argument arrays as the region finds them: entry
    (p, n) of the block is array entry (2000 t + p, n); its left factors are row p of the left block, which is row
    2000 t + p of the left operand, and its right factors are column n of the right operand. A block's coordinate on an
    axis is the block index times the block's extent plus the coordinate inside the block. -/
theorem flushed_eq (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := index_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
      = matProd (V c main_arg0) (V c main_arg2) (((cfg0.win 2).blk t).view.emb (ix2 p q))
  refine (payload_apply (iblk0 V c 0 t) (iblk0 V c 1 t) p q).trans ?_
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact term_eq (V c main_arg0) (V c main_arg2) h0 h1

/-- An index of the output array is in point t's block iff each coordinate is in the block's range on its axis. -/
theorem mem_blk (t : Fin cfg0.N) (i : S40000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Every entry of the output is written by some grid point: row r by point r / 2000, whose block holds rows
    2000 (r / 2000) … 2000 (r / 2000) + 1999 and all 128 columns. -/
theorem cover (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  have hN : cfg0.N = 20 := N_0
  let t : Fin cfg0.N := ⟨(i 0).val / 2000, by rw [hN]; omega⟩
  obtain ⟨e0, e1, e2, e3, e4, e5⟩ := index_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after all 20 points is the product of the two argument arrays as the region found them: every
    block written is a block of that one product, and the blocks cover the array. -/
theorem matmul_arr (c : Dev nD) :
    (dat0 (F := Ideal) V c).arrAt 2 cfg0.N = matProd (V c main_arg0) (V c main_arg2) :=
  (dat0 (F := Ideal) V c).arrAt_eq_of_cover 2 (matProd (V c main_arg0) (V c main_arg2)) (fun t _ => flushed_eq V c t) cover

/-- The same, read at an entry. -/
theorem matmul_arr_apply (c : Dev nD) (i : S40000x128.Idx) :
    (dat0 (F := Ideal) V c).arrAt 2 cfg0.N i = matProd (V c main_arg0) (V c main_arg2) i :=
  congrFun (matmul_arr V c) i

end

end Cert.KernelIdeal.MatmulValue

end
-- ==== Proof.ColumnSums.lean ====
/-
  Region 1 of the idealized kernel: the column sums and the column sums of squares of its input.

  The region walks a grid of twenty points over the rows of its input X (40000 × 128), 2000 rows per point. Two
  one-row accumulators (1 × 128) are carried from point to point: at the first point both are set to zero; at every
  point the first gains, lane by lane, the sum of the block's 2000 rows, the second the sum of their squares. Each is
  written back to its array once, after the last point.

  Read over the extended reals, where addition is commutative and associative and 0 + x = x, the two arrays end holding
      out₁(0, l) = Σ_{i < 40000} X(i, l)      and      out₂(0, l) = Σ_{i < 40000} X(i, l) · X(i, l).
  The steps: what each of the body's two cases leaves in the accumulators, one payload each; the payloads read at an
  entry (a sum over the rows of a block is the sum over its 2000 row coordinates); after point n the accumulators hold
  the shares of blocks 0 … n (induction on the point); the one write-back covers the whole array; and twenty blocks
  of 2000 rows enumerate the 40000 rows once each, so the shares add up to the sum over all rows.
-/
import proofs.«109631_j1623497638173_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.ColumnSums

open Cert.KernelIdeal Cert.KernelIdeal.Gen

/-! ## What each case of the body leaves in the two accumulators

The body's stores and loads all go through the whole one-row buffers, so each case leaves one payload: at the first
point the zero row is stored first and read back, at every later point the row the point before left is read. -/

section Pieces

variable {F : FTy → Type} [FloatOps F]

/-- The zero offsets of a whole-buffer access, however they are spelt. -/
theorem hz : (![0, 0] : Fin 2 → Nat) = fun _ => 0 := funext fun a => by fin_cases a <;> rfl

/-- A later point leaves, in the first accumulator holding `xo1`, `xo1` plus the column sums of the block `x`. -/
theorem out_B_1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S2000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S2000x128) hz,
    View.ld_unit_zero (S := S1x128) hz]

/-- A later point leaves, in the second accumulator holding `xo2`, `xo2` plus the column sums of the squares of `x`. -/
theorem out_B_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S2000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S2000x128) hz,
    View.ld_unit_zero (S := S1x128) hz]

/-- The first point leaves, in the first accumulator, the zero row plus the column sums of the block `x`. -/
theorem out_A_1 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S2000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz]

/-- The first point leaves, in the second accumulator, the zero row plus the column sums of the squares of `x`. -/
theorem out_A_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S2000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S2000x128) hz]

end Pieces

/-! ## The payloads read at an entry, over the extended reals -/

section Payloads

/-- A sum over the rows of a block, read at lane `l`: the sum over the 2000 row coordinates. -/
theorem lanesum_apply (v : FVec Ideal S2000x128 .f32) (l : Fin 128) :
    multiReduction (F := Ideal) .add [0] S128 v 0x00000000#32 reduces_S2000x128_S128 (.inl rfl) rfl (ix1 l)
      = ∑ r : Fin 2000, v (ix2 r l) :=
  (Ideal.multiReduction_add_single v 0x00000000#32 reduces_S2000x128_S128 (.inl rfl) rfl (ix1 l)).trans
    (Finset.sum_congr rfl fun r _ => congrArg v (funext fun a => by
      match a with
      | ⟨0, _⟩ => rfl
      | ⟨1, _⟩ => rfl))

/-- A lane vector viewed as a one-row block reads, at (0, l), its lane `l`. -/
theorem row_apply (v : FVec Ideal S128 .f32) (z : Fin 1) (l : Fin 128) :
    shapeCast S1x128 v shapeCasts_S128_S1x128 (ix2 z l) = v (ix1 l) :=
  (shapeCast_addUnit_apply ![128] v shapeCasts_S128_S1x128 (ix2 z l)).trans
    (congrArg v (funext fun a => by
      match a with
      | ⟨0, _⟩ => rfl))

/-- The first accumulator's new contents at (0, l): the old entry plus the sum of lane `l` over the block's rows. -/
theorem pay4_apply (x : Vec Ideal S2000x128 .f32) (xo : Vec Ideal S1x128 .f32) (z : Fin 1) (l : Fin 128) :
    k1_pay4 (F := Ideal) x xo (ix2 z l) = xo (ix2 z l) + ∑ r : Fin 2000, x (ix2 r l) := by
  unfold k1_pay4 k1_pay3
  dsimp only
  rw [shapeCast_self, shapeCast_self]
  refine congrArg (xo (ix2 z l) + ·) ?_
  exact (row_apply _ z l).trans (lanesum_apply x l)

/-- The second accumulator's new contents at (0, l): the old entry plus the sum of the squares of lane `l` over the block's rows. -/
theorem pay5_apply (x : Vec Ideal S2000x128 .f32) (xo : Vec Ideal S1x128 .f32) (z : Fin 1) (l : Fin 128) :
    k1_pay5 (F := Ideal) x xo (ix2 z l) = xo (ix2 z l) + ∑ r : Fin 2000, x (ix2 r l) * x (ix2 r l) := by
  unfold k1_pay5 k1_pay3
  dsimp only
  rw [shapeCast_self, shapeCast_self]
  refine congrArg (xo (ix2 z l) + ·) ?_
  exact (row_apply _ z l).trans (lanesum_apply (mulf x x) l)

/-- The zero row the first point stores reads the extended real 0. -/
theorem pay1_apply (j : S1x128.Idx) : k1_pay1 (F := Ideal) j = 0 := by
  unfold k1_pay1
  exact Ideal.ofBits_zero_f32

theorem pay2_apply (j : S1x128.Idx) : k1_pay2 (F := Ideal) j = 0 := by
  unfold k1_pay2
  exact Ideal.ofBits_zero_f32

end Payloads

/-! ## Regrouping: twenty blocks of 2000 rows are the 40000 rows -/

section Sums

/-- Row `2000 s + r` of the array is row `r` of block `s`. -/
def rowEquiv : Fin 20 × Fin 2000 ≃ Fin 40000 where
  toFun p := ⟨2000 * p.1.val + p.2.val, by have := p.1.isLt; have := p.2.isLt; omega⟩
  invFun i := (⟨i.val / 2000, by have := i.isLt; omega⟩, ⟨i.val % 2000, Nat.mod_lt _ (by decide)⟩)
  left_inv p := by
    have h1 := p.1.isLt
    have h2 := p.2.isLt
    refine Prod.ext (Fin.ext ?_) (Fin.ext ?_)
    · show (2000 * p.1.val + p.2.val) / 2000 = p.1.val
      omega
    · show (2000 * p.1.val + p.2.val) % 2000 = p.2.val
      omega
  right_inv i := Fin.ext (by
    show 2000 * (i.val / 2000) + i.val % 2000 = i.val
    omega)

/-- Block `s`'s share of a sum over the 40000 rows: its 2000 rows (nothing past the array). -/
def blockSum (f : Fin 40000 → EReal) (s : ℕ) : EReal :=
  ∑ r : Fin 2000, if h : 2000 * s + r.val < 40000 then f ⟨2000 * s + r.val, h⟩ else 0

/-- The twenty blocks' shares add up to the sum over all rows: addition of extended reals is commutative and
    associative, so the double sum over (block, row in block) is the sum over the rows it enumerates. -/
theorem sum_blockSum (f : Fin 40000 → EReal) : ∑ s ∈ Finset.range 20, blockSum f s = ∑ i : Fin 40000, f i := by
  rw [← Fin.sum_univ_eq_sum_range (fun s => blockSum f s) 20, ← Equiv.sum_comp rowEquiv f, Fintype.sum_prod_type]
  refine Finset.sum_congr rfl fun s _ => Finset.sum_congr rfl fun r _ => ?_
  have hs := s.isLt
  have hr := r.isLt
  rw [dif_pos (by omega)]
  rfl

end Sums

/-! ## The accumulators after each point -/

section Run

variable (V : (c : Dev nD) → (b : Ref sig .tc) → Buf (Elt Ideal) ((c : Thread nD τ).loc b))

/-- The block index of the input window at point `t` is (t, 0): decided over the grid. -/
theorem idx_facts : ∀ t : Fin cfg1.N, win1_0.index t 0 = t.val ∧ win1_0.index t 1 = 0 :=
  (by decide +kernel : ∀ t : Fin grid1.N, win1_0.index t 0 = t.val ∧ win1_0.index t 1 = 0)

/-- The block of the input at point `t`, as a 2000 × 128 vector. -/
abbrev blk (c : Dev nD) (t : Fin cfg1.N) : Vec Ideal S2000x128 .f32 := iblk1 V c 0 t

/-- Row `r`, lane `l` of the block at point `t` is row `2000 t + r`, lane `l` of the array. -/
theorem iblk_apply (c : Dev nD) (t : Fin cfg1.N) (r : Fin 2000) (l : Fin 128) (h : 2000 * t.val + r.val < 40000) :
    blk V c t (ix2 r l) = (V c main_v47 : S40000x128.Idx → EReal) (ix2 ⟨2000 * t.val + r.val, h⟩ l) := by
  unfold blk iblk1
  rw [View.read_apply]
  show V c main_v47 _ = V c main_v47 _
  refine congrArg (V c main_v47) (funext fun a => Fin.ext ?_)
  match a with
  | ⟨0, _⟩ =>
    show win1_0.index t 0 * 2000 + 1 * r.val = 2000 * t.val + r.val
    rw [(idx_facts t).1]; omega
  | ⟨1, _⟩ =>
    show win1_0.index t 1 * 128 + 1 * l.val = l.val
    rw [(idx_facts t).2]; omega

/-- Lane `l` of the array as a function of the row. -/
abbrev col (c : Dev nD) (l : Fin 128) : Fin 40000 → EReal :=
  fun i => (V c main_v47 : S40000x128.Idx → EReal) (ix2 i l)

/-- The sum of lane `l` over the rows of the block at point `t` is block `t`'s share of the column's sum. -/
theorem iblk_sum (c : Dev nD) (t : Fin cfg1.N) (l : Fin 128) :
    ∑ r : Fin 2000, blk V c t (ix2 r l) = blockSum (col V c l) t.val := by
  have hN : t.val < 20 := lt_of_lt_of_eq t.isLt (show cfg1.N = 20 from N_1)
  refine Finset.sum_congr rfl fun r _ => ?_
  have hr := r.isLt
  have h : 2000 * t.val + r.val < 40000 := by omega
  rw [dif_pos h]
  exact iblk_apply V c t r l h

/-- The same for the squares. -/
theorem iblk_sumsq (c : Dev nD) (t : Fin cfg1.N) (l : Fin 128) :
    ∑ r : Fin 2000, blk V c t (ix2 r l) * blk V c t (ix2 r l)
      = blockSum (fun i => col V c l i * col V c l i) t.val := by
  have hN : t.val < 20 := lt_of_lt_of_eq t.isLt (show cfg1.N = 20 from N_1)
  refine Finset.sum_congr rfl fun r _ => ?_
  have hr := r.isLt
  have h : 2000 * t.val + r.val < 40000 := by omega
  rw [dif_pos h, iblk_apply V c t r l h]

/-- The two accumulators after `k` points: the blocks' shares so far, of the column's sum and of its squares' sum. -/
def sums (c : Dev nD) (k : ℕ) : Vec Ideal S1x128 .f32 × Vec Ideal S1x128 .f32 :=
  (fun j => ∑ s ∈ Finset.range k, blockSum (col V c (j 1)) s,
   fun j => ∑ s ∈ Finset.range k, blockSum (fun i => col V c (j 1) i * col V c (j 1) i) s)

/-- The first point: zero plus the first block's share. -/
theorem first_point (c : Dev nD) (t : Fin cfg1.N) (h0 : t.val = 0) :
    (k1_pay4 (F := Ideal) (blk V c t) (k1_pay1 (F := Ideal)), k1_pay5 (F := Ideal) (blk V c t) (k1_pay2 (F := Ideal))) = sums V c 1 := by
  refine Prod.ext (funext fun j => ?_) (funext fun j => ?_)
  · obtain ⟨z, l, rfl⟩ : ∃ (z : Fin 1) (l : Fin 128), j = ix2 z l := ⟨j 0, j 1, eq_ix2 j⟩
    show k1_pay4 (F := Ideal) (blk V c t) (k1_pay1 (F := Ideal)) (ix2 z l) = ∑ s ∈ Finset.range 1, blockSum (col V c l) s
    rw [pay4_apply, pay1_apply, zero_add, Finset.sum_range_one, iblk_sum, h0]
  · obtain ⟨z, l, rfl⟩ : ∃ (z : Fin 1) (l : Fin 128), j = ix2 z l := ⟨j 0, j 1, eq_ix2 j⟩
    show k1_pay5 (F := Ideal) (blk V c t) (k1_pay2 (F := Ideal)) (ix2 z l) = ∑ s ∈ Finset.range 1, blockSum (fun i => col V c l i * col V c l i) s
    rw [pay5_apply, pay2_apply, zero_add, Finset.sum_range_one, iblk_sumsq, h0]

/-- A later point: what the point before left plus this block's share. -/
theorem later_point (c : Dev nD) (t : Fin cfg1.N) (k : ℕ) (hk : t.val = k) :
    (k1_pay4 (F := Ideal) (blk V c t) (sums V c k).1, k1_pay5 (F := Ideal) (blk V c t) (sums V c k).2) = sums V c (k + 1) := by
  refine Prod.ext (funext fun j => ?_) (funext fun j => ?_)
  · obtain ⟨z, l, rfl⟩ : ∃ (z : Fin 1) (l : Fin 128), j = ix2 z l := ⟨j 0, j 1, eq_ix2 j⟩
    show k1_pay4 (F := Ideal) (blk V c t) (sums V c k).1 (ix2 z l) = ∑ s ∈ Finset.range (k + 1), blockSum (col V c l) s
    rw [pay4_apply, Finset.sum_range_succ, iblk_sum, hk]
    rfl
  · obtain ⟨z, l, rfl⟩ : ∃ (z : Fin 1) (l : Fin 128), j = ix2 z l := ⟨j 0, j 1, eq_ix2 j⟩
    show k1_pay5 (F := Ideal) (blk V c t) (sums V c k).2 (ix2 z l) = ∑ s ∈ Finset.range (k + 1), blockSum (fun i => col V c l i * col V c l i) s
    rw [pay5_apply, Finset.sum_range_succ, iblk_sumsq, hk]
    rfl

/-- After point `n` the accumulators hold the shares of blocks 0 … n: by induction on the point. -/
theorem outsAt_eq (c : Dev nD) : ∀ (n : ℕ) (h : n < cfg1.N), outsAt1 V c n h = sums V c (n + 1)
  | 0, h => by
    rw [outsAt1_A V c ⟨0, h⟩ rfl, out_A_1, out_A_2]
    exact first_point V c ⟨0, h⟩ rfl
  | n + 1, h => by
    have hN : cfg1.N = 20 := N_1
    have hB : ¬(⟨n + 1, h⟩ : Fin cfg1.N).val % 20 = 0 := by dsimp only; omega
    rw [outsAt1_B V c ⟨n + 1, h⟩ hB, out_B_1, out_B_2]
    show (k1_pay4 (F := Ideal) (iblk1 V c 0 ⟨n + 1, h⟩) (outsAt1 V c n _).1, k1_pay5 (F := Ideal) (iblk1 V c 0 ⟨n + 1, h⟩) (outsAt1 V c n _).2) = _
    rw [outsAt_eq c n]
    exact later_point V c ⟨n + 1, h⟩ (n + 1) rfl

end Run

/-! ## The two result arrays after the run

Each result's block is its whole one-row array at every point, and it is written back once, after the last point: the
array ends holding what the last point leaves, the shares of all twenty blocks. -/

section Final

variable (V : (c : Dev nD) → (b : Ref sig .tc) → Buf (Elt Ideal) ((c : Thread nD τ).loc b))

/-- The last point of the grid. -/
abbrev tLast : Fin cfg1.N := ⟨19, by decide⟩

/-- The results' block index is (0, 0) at every point: decided over the grid. -/
theorem idx0_1 : ∀ (t : Fin cfg1.N) (a : Fin 2), win1_1.index t a = 0 :=
  (by decide +kernel : ∀ (t : Fin grid1.N) (a : Fin 2), win1_1.index t a = 0)
theorem idx0_2 : ∀ (t : Fin cfg1.N) (a : Fin 2), win1_2.index t a = 0 :=
  (by decide +kernel : ∀ (t : Fin grid1.N) (a : Fin 2), win1_2.index t a = 0)

/-- The one write-back of the first result, after point 19, writes the shares of all twenty blocks. -/
theorem flushed_eq_1 (c : Dev nD) (t : Fin cfg1.N) (hf : (cfg1.win 1).flush t = true) :
    (dat1 V c).flushed 1 t = ((cfg1.win 1).blk t).view.read (Elt Ideal) (sums V c 20).1 := by
  have hN : cfg1.N = 20 := N_1
  have h19 : t.val = 19 := by have := (flush1_1 t).mp hf; have := t.isLt; omega
  show (cfg1.win 1).cut (grid1.coords t) ((dat1 V c).after 1 t) = _
  rw [after1_1, outsAt_eq, h19]
  have hz' : (fun a => win1_1.index t a * main_v48_0.ty.shape.size a) = fun _ => 0 :=
    funext fun a => by rw [idx0_1 t a]; exact Nat.zero_mul _
  exact (Memref.read_access_unit_zero (Elt Ideal) main_v48_0 hz' (fun a => by rw [congrFun hz' a]; simp) (sums V c 20).1).symm

/-- The same for the second result. -/
theorem flushed_eq_2 (c : Dev nD) (t : Fin cfg1.N) (hf : (cfg1.win 2).flush t = true) :
    (dat1 V c).flushed 2 t = ((cfg1.win 2).blk t).view.read (Elt Ideal) (sums V c 20).2 := by
  have hN : cfg1.N = 20 := N_1
  have h19 : t.val = 19 := by have := (flush1_2 t).mp hf; have := t.isLt; omega
  show (cfg1.win 2).cut (grid1.coords t) ((dat1 V c).after 2 t) = _
  rw [after1_2, outsAt_eq, h19]
  have hz' : (fun a => win1_2.index t a * main_v48_1.ty.shape.size a) = fun _ => 0 :=
    funext fun a => by rw [idx0_2 t a]; exact Nat.zero_mul _
  exact (Memref.read_access_unit_zero (Elt Ideal) main_v48_1 hz' (fun a => by rw [congrFun hz' a]; simp) (sums V c 20).2).symm

/-- The first result array ends holding the twenty shares of each column's sum. -/
theorem final_1 (c : Dev nD) : (dat1 V c).arrAt 1 cfg1.N = (sums V c 20).1 :=
  (dat1 V c).arrAt_eq_of_cover 1 (sums V c 20).1 (flushed_eq_1 V c) fun i =>
    ⟨tLast, (flush1_1 tLast).mpr rfl, by
      show i ∈ ((View.whole main_v48_0).slice (win1_1.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index tLast 0 * win1_1.size 0 ≤ (i 0 : Nat) ∧ (i 0 : Nat) < win1_1.index tLast 0 * win1_1.size 0 + win1_1.xsize (grid1.coords tLast) 0
        rw [show win1_1.index tLast 0 * win1_1.size 0 = 0 from by decide +kernel, show win1_1.xsize (grid1.coords tLast) 0 = 1 from by decide +kernel]
        omega
      | ⟨1, _⟩ =>
        show win1_1.index tLast 1 * win1_1.size 1 ≤ (i 1 : Nat) ∧ (i 1 : Nat) < win1_1.index tLast 1 * win1_1.size 1 + win1_1.xsize (grid1.coords tLast) 1
        rw [show win1_1.index tLast 1 * win1_1.size 1 = 0 from by decide +kernel, show win1_1.xsize (grid1.coords tLast) 1 = 128 from by decide +kernel]
        omega⟩

/-- The second result array ends holding the twenty shares of each column's sum of squares. -/
theorem final_2 (c : Dev nD) : (dat1 V c).arrAt 2 cfg1.N = (sums V c 20).2 :=
  (dat1 V c).arrAt_eq_of_cover 2 (sums V c 20).2 (flushed_eq_2 V c) fun i =>
    ⟨tLast, (flush1_2 tLast).mpr rfl, by
      show i ∈ ((View.whole main_v48_1).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tLast 0 * win1_2.size 0 ≤ (i 0 : Nat) ∧ (i 0 : Nat) < win1_2.index tLast 0 * win1_2.size 0 + win1_2.xsize (grid1.coords tLast) 0
        rw [show win1_2.index tLast 0 * win1_2.size 0 = 0 from by decide +kernel, show win1_2.xsize (grid1.coords tLast) 0 = 1 from by decide +kernel]
        omega
      | ⟨1, _⟩ =>
        show win1_2.index tLast 1 * win1_2.size 1 ≤ (i 1 : Nat) ∧ (i 1 : Nat) < win1_2.index tLast 1 * win1_2.size 1 + win1_2.xsize (grid1.coords tLast) 1
        rw [show win1_2.index tLast 1 * win1_2.size 1 = 0 from by decide +kernel, show win1_2.xsize (grid1.coords tLast) 1 = 128 from by decide +kernel]
        omega⟩

/-- THE COLUMN SUMS: after the run the first result array holds, at lane `l`, the sum of lane `l` over all 40000 rows
    of the input `X` as the region found it. -/
theorem colsum_arr (c : Dev nD) (X : S40000x128.Idx → EReal) (hX : V c main_v47 = X) :
    (dat1 (F := Ideal) V c).arrAt 1 cfg1.N = fun j : S1x128.Idx => ∑ i : Fin 40000, X (ix2 i (j 1)) := by
  subst hX
  exact (final_1 V c).trans (funext fun j => sum_blockSum (col V c (j 1)))

/-- THE COLUMN SUMS OF SQUARES: the second result array holds, at lane `l`, the sum of the squares of lane `l` over
    all 40000 rows of `X`. -/
theorem colsumsq_arr (c : Dev nD) (X : S40000x128.Idx → EReal) (hX : V c main_v47 = X) :
    (dat1 (F := Ideal) V c).arrAt 2 cfg1.N
      = fun j : S1x128.Idx => ∑ i : Fin 40000, X (ix2 i (j 1)) * X (ix2 i (j 1)) := by
  subst hX
  exact (final_2 V c).trans (funext fun j => sum_blockSum (fun i => col V c (j 1) i * col V c (j 1) i))

end Final

end Cert.KernelIdeal.ColumnSums
-- ==== Proof.NormalizeValue.lean ====
/-
  Region 2 read as one function of whole arrays. The region normalizes a [40000, 128] array x column by column:
  with per-column rows mean μ, variance v, scale γ and shift β (each [1, 128]) and the constant ε,

      out a q = max (γ q · (x a q − μ q) · rsqrt (v q + ε) + β q, 0).

  The region walks 20 grid points; point t reads rows 2000 t … 2000 t + 1999 of x, the whole of the four parameter
  rows, and writes the same rows of the output. The arithmetic is pointwise in the row and the parameter rows are
  broadcast over the rows, so what point t writes is exactly rows 2000 t … of ONE function of the five arrays
  (`normalized`); the 20 row blocks tile the 40000 rows, hence the output array ends equal to that function
  (`normalize_arr`). Everything is stated at the entry contents V of the region, a parameter.
-/
import proofs.«109631_j1623497638173_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormalizeValue

open Cert.KernelIdeal Cert.KernelIdeal.Gen Idealize.ShloMosaic Idealize.ShloMosaic.TcCoe Idealize.SL.Sem
open Idealize.ShloMosaic.ValueIdx
open Idealize.ShloMosaic.Pipeline (Dat)

/-! ## The arithmetic at one entry of a block -/

/-- The body's value at row p, column q of a block: the casts to the same shape are identities, each [1, 128] row
    broadcast over the 2000 rows reads its one row at column q, and the remaining operations are entrywise, on the
    extended reals: max (g q · (x p q − m q) · rsqrt (v q + ε) + b q, 0). -/
theorem pay_apply (m v g b : Vec Ideal S1x128 .f32) (x : Vec Ideal S2000x128 .f32) (p : Fin 2000) (q : Fin 128) :
    k2_pay1 (F := Ideal) m v g b x (ix2 p q)
      = max (g (ix2 (0 : Fin 1) q) * (x (ix2 p q) - m (ix2 (0 : Fin 1) q))
            * Ideal.rsqrt (v (ix2 (0 : Fin 1) q) + Ideal.ofBits .f32 0x3727C5AC#32) + b (ix2 (0 : Fin 1) q))
          (Ideal.ofBits .f32 0x00000000#32) := by
  unfold k2_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-! ## The whole-array function -/

/-- The normalized array as one function of the five arrays: at row a, column q,
    max (γ q · (x a q − μ q) · rsqrt (v q + ε) + β q, 0), the four parameter rows read at their one row. -/
abbrev normalized (X : S40000x128.Idx → EReal) (M Va G B : S1x128.Idx → EReal) : S40000x128.Idx → EReal :=
  fun i => max (G (ix2 (0 : Fin 1) (i 1)) * (X i - M (ix2 (0 : Fin 1) (i 1)))
      * Ideal.rsqrt (Va (ix2 (0 : Fin 1) (i 1)) + Ideal.ofBits .f32 0x3727C5AC#32) + B (ix2 (0 : Fin 1) (i 1)))
    (Ideal.ofBits .f32 0x00000000#32)

/-- The normalized array at an index, spelt out. -/
theorem normalized_apply (X : S40000x128.Idx → EReal) (M Va G B : S1x128.Idx → EReal) (i : S40000x128.Idx) :
    normalized X M Va G B i
      = max (G (ix2 (0 : Fin 1) (i 1)) * (X i - M (ix2 (0 : Fin 1) (i 1)))
            * Ideal.rsqrt (Va (ix2 (0 : Fin 1) (i 1)) + Ideal.ofBits .f32 0x3727C5AC#32) + B (ix2 (0 : Fin 1) (i 1)))
          (Ideal.ofBits .f32 0x00000000#32) := rfl

/-- Blocks that are restrictions of the arrays give the normalized array: if the block x at j is the array X at k,
    k in the same column as j, and the four parameter blocks are the four parameter rows, then the body's value at
    j is the normalized array at k. -/
theorem point_eq (X : S40000x128.Idx → EReal) (M Va G B : S1x128.Idx → EReal)
    (x : Vec Ideal S2000x128 .f32) (m v g b : Vec Ideal S1x128 .f32)
    (j : S2000x128.Idx) (k : S40000x128.Idx)
    (hx : x j = X k) (hk1 : (k 1).val = (j 1).val)
    (hm : ∀ y, m y = M y) (hv : ∀ y, v y = Va y) (hg : ∀ y, g y = G y) (hb : ∀ y, b y = B y) :
    k2_pay1 (F := Ideal) m v g b x j = normalized X M Va G B k := by
  obtain ⟨p, q, rfl⟩ : ∃ (p : Fin 2000) (q : Fin 128), j = ix2 p q := ⟨j 0, j 1, eq_ix2 j⟩
  obtain ⟨a, q', rfl⟩ : ∃ (a : Fin 40000) (q' : Fin 128), k = ix2 a q' := ⟨k 0, k 1, eq_ix2 k⟩
  obtain rfl : q' = q := Fin.ext hk1
  rw [pay_apply, hx, hm, hv, hg, hb]

/-! ## The blocks of the six windows -/

variable (V : (c : Dev nD) → (b : Ref sig .tc) → Buf (Elt Ideal) ((c : Thread nD τ).loc b)) (c : Dev nD)

/-- The block indices over the 20 grid points: the x window and the output window sit at block (t, 0), the four
    parameter windows at block (0, 0) at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The x window's block at point t is rows 2000 t … 2000 t + 1999 of x: its entry y is the array's entry at row
    2000 t + y₀, column y₁. -/
theorem iblk_x (t : Fin cfg2.N) (y : S2000x128.Idx) (k : S40000x128.Idx)
    (hk0 : (k 0).val = 2000 * t.val + (y 0).val) (hk1 : (k 1).val = (y 1).val) :
    (iblk2 V c 0 t : Vec Ideal S2000x128 .f32) y = (V c main_v47 : S40000x128.Idx → EReal) k := by
  obtain ⟨e0, e1, -⟩ := idx_facts t
  unfold iblk2
  rw [View.read_apply]
  show V c main_v47 _ = V c main_v47 _
  congr 1
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

/-- The mean window's block is the whole mean row, at every point. -/
theorem iblk_mean (t : Fin cfg2.N) (y : S1x128.Idx) :
    (iblk2 V c 1 t : Vec Ideal S1x128 .f32) y = (V c main_v50 : S1x128.Idx → EReal) y := by
  have e := idx_facts t
  unfold iblk2
  rw [View.read_apply]
  show V c main_v50 _ = V c main_v50 _
  congr 1
  funext a
  apply Fin.ext
  match a with
  | ⟨0, _⟩ => show win2_1.index t 0 * 1 + 1 * (y 0).val = (y 0).val; omega
  | ⟨1, _⟩ => show win2_1.index t 1 * 128 + 1 * (y 1).val = (y 1).val; omega

/-- The variance window's block is the whole variance row, at every point. -/
theorem iblk_var (t : Fin cfg2.N) (y : S1x128.Idx) :
    (iblk2 V c 2 t : Vec Ideal S1x128 .f32) y = (V c main_v54 : S1x128.Idx → EReal) y := by
  have e := idx_facts t
  unfold iblk2
  rw [View.read_apply]
  show V c main_v54 _ = V c main_v54 _
  congr 1
  funext a
  apply Fin.ext
  match a with
  | ⟨0, _⟩ => show win2_2.index t 0 * 1 + 1 * (y 0).val = (y 0).val; omega
  | ⟨1, _⟩ => show win2_2.index t 1 * 128 + 1 * (y 1).val = (y 1).val; omega

/-- The scale window's block is the whole scale row, at every point. -/
theorem iblk_gamma (t : Fin cfg2.N) (y : S1x128.Idx) :
    (iblk2 V c 3 t : Vec Ideal S1x128 .f32) y = (V c main_v55 : S1x128.Idx → EReal) y := by
  have e := idx_facts t
  unfold iblk2
  rw [View.read_apply]
  show V c main_v55 _ = V c main_v55 _
  congr 1
  funext a
  apply Fin.ext
  match a with
  | ⟨0, _⟩ => show win2_3.index t 0 * 1 + 1 * (y 0).val = (y 0).val; omega
  | ⟨1, _⟩ => show win2_3.index t 1 * 128 + 1 * (y 1).val = (y 1).val; omega

/-- The shift window's block is the whole shift row, at every point. -/
theorem iblk_beta (t : Fin cfg2.N) (y : S1x128.Idx) :
    (iblk2 V c 4 t : Vec Ideal S1x128 .f32) y = (V c main_v56 : S1x128.Idx → EReal) y := by
  have e := idx_facts t
  unfold iblk2
  rw [View.read_apply]
  show V c main_v56 _ = V c main_v56 _
  congr 1
  funext a
  apply Fin.ext
  match a with
  | ⟨0, _⟩ => show win2_4.index t 0 * 1 + 1 * (y 0).val = (y 0).val; omega
  | ⟨1, _⟩ => show win2_4.index t 1 * 128 + 1 * (y 1).val = (y 1).val; omega

/-! ## What each point writes back -/

theorem hz : (![0, 0] : Fin 2 → Nat) = fun _ => 0 := funext fun a => by fin_cases a <;> rfl

/-- What grid point t writes back is block t of the normalized array: the body stores its value over the whole
    staging block; at block entry j the x block is x at row 2000 t + j₀, which is where the output block's entry j
    sits in the output array, and the parameter blocks are the parameter rows. -/
theorem flushed_eq (t : Fin cfg2.N) :
    (dat2 V c).flushed 5 t = ((cfg2.win 5).blk t).view.read (Elt Ideal)
      (normalized (V c main_v47) (V c main_v50) (V c main_v54) (V c main_v55) (V c main_v56)) := by
  show (cfg2.win 5).cut (grid2.coords t) ((dat2 V c).after 5 t) = _
  rw [after2_5]
  unfold out2_5
  rw [View.canon_unit_zero hz]
  simp only [View.ld_unit_zero (S := S1x128) hz, View.ld_unit_zero (S := S2000x128) hz]
  obtain ⟨-, -, -, -, -, -, -, -, -, -, e0, e1⟩ := idx_facts t
  funext j
  refine point_eq (V c main_v47) (V c main_v50) (V c main_v54) (V c main_v55) (V c main_v56)
    (iblk2 V c 0 t) (iblk2 V c 1 t) (iblk2 V c 2 t) (iblk2 V c 3 t) (iblk2 V c 4 t) j (((cfg2.win 5).blk t).view.emb j)
    (iblk_x V c t j (((cfg2.win 5).blk t).view.emb j) ?_ ?_) ?_ (iblk_mean V c t) (iblk_var V c t) (iblk_gamma V c t) (iblk_beta V c t)
  · show win2_5.index t 0 * 2000 + 1 * (j 0).val = 2000 * t.val + (j 0).val; rw [e0]; omega
  · show win2_5.index t 1 * 128 + 1 * (j 1).val = (j 1).val; rw [e1]; omega
  · show win2_5.index t 1 * 128 + 1 * (j 1).val = (j 1).val; rw [e1]; omega

/-! ## The blocks tile the array -/

/-- An array index is in point t's block iff each coordinate is in the block's range on its axis. -/
theorem mem_blk (t : Fin cfg2.N) (i : S40000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v57).slice (win2_5.rect t)).set ↔ _
  rw [View.set_slice_whole, Rect.mem_set_unit]
  exact Iff.rfl

/-- The 20 blocks of 2000 rows tile the 40000 rows: row a lies in the block of point a / 2000, and every point
    writes back. -/
theorem cover (i : S40000x128.Idx) :
    ∃ t : Fin cfg2.N, (cfg2.win 5).flush t = true ∧ i ∈ ((cfg2.win 5).blk t).view.set := by
  have hi0 : (i 0).val < 40000 := (i 0).isLt
  have hi1 : (i 1).val < 128 := (i 1).isLt
  have hN : cfg2.N = 20 := N_2
  obtain ⟨t, ht⟩ : ∃ t : Fin cfg2.N, t.val = (i 0).val / 2000 := ⟨⟨(i 0).val / 2000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t 0 * 2000 ≤ (i 0).val ∧ (i 0).val < win2_5.index t 0 * 2000 + 2000
    rw [e0, ht]; omega
  | ⟨1, _⟩ =>
    show win2_5.index t 1 * 128 ≤ (i 1).val ∧ (i 1).val < win2_5.index t 1 * 128 + 128
    rw [e1]; omega

/-! ## The output array after the region -/

/-- After the region the output array holds the normalized array of the five arrays the region found: every point
    writes its block of that one function, and the blocks cover the array. -/
theorem normalize_arr :
    (dat2 (F := Ideal) V c).arrAt 5 cfg2.N
      = normalized (V c main_v47) (V c main_v50) (V c main_v54) (V c main_v55) (V c main_v56) :=
  (dat2 V c).arrAt_eq_of_cover 5
    (normalized (V c main_v47) (V c main_v50) (V c main_v54) (V c main_v55) (V c main_v56))
    (fun t _ => flushed_eq V c t) cover

/-- The same with the five arrays named: whatever the region finds in them, the output array is their
    normalization, entry by entry. -/
theorem normalize_arr_of (x : S40000x128.Idx → EReal) (μ v γ β : S1x128.Idx → EReal)
    (hx : (V c main_v47 : S40000x128.Idx → EReal) = x) (hμ : (V c main_v50 : S1x128.Idx → EReal) = μ)
    (hv : (V c main_v54 : S1x128.Idx → EReal) = v) (hγ : (V c main_v55 : S1x128.Idx → EReal) = γ)
    (hβ : (V c main_v56 : S1x128.Idx → EReal) = β) :
    (dat2 (F := Ideal) V c).arrAt 5 cfg2.N
      = fun i : S40000x128.Idx =>
          max (γ (ix2 (0 : Fin 1) (i 1)) * (x i - μ (ix2 (0 : Fin 1) (i 1)))
                * Ideal.rsqrt (v (ix2 (0 : Fin 1) (i 1)) + Ideal.ofBits .f32 0x3727C5AC#32) + β (ix2 (0 : Fin 1) (i 1)))
            (Ideal.ofBits .f32 0x00000000#32) := by
  subst hx hμ hv hγ hβ
  exact normalize_arr V c

end Cert.KernelIdeal.NormalizeValue

end
-- ==== Proof.RealSums.lean ====
/-
  Real numbers inside the extended reals.  An extended real is REAL when it is the image of a real number; reals are
  closed under sums, differences, products and finite sums, and the coercion commutes with a finite sum.
  Then the variance identity over n samples (n ≠ 0), with μ = (Σ x_i) / n:
      (Σ (x_i - μ)(x_i - μ)) / n  =  (Σ x_i x_i) / n  -  μ μ.
-/
import Mathlib

noncomputable section

namespace Cert.Lib

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The coercion of the reals into the extended reals commutes with a finite sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A family of reals is the coercion of a real family. -/
theorem exists_real_family {ι : Type*} (f : ι → EReal) (h : ∀ i, IsReal (f i)) : ∃ g : ι → ℝ, ∀ i, f i = (g i : EReal) :=
  ⟨fun i => (h i).choose, fun i => (h i).choose_spec⟩

/-- The variance identity over the reals. -/
theorem variance_real {n : ℕ} (hn : (n : ℝ) ≠ 0) (x : Fin n → ℝ) :
    (∑ i, (x i - (∑ i, x i) / n) * (x i - (∑ i, x i) / n)) / n
      = (∑ i, x i * x i) / n - ((∑ i, x i) / n) * ((∑ i, x i) / n) := by
  set S := ∑ i, x i with hS
  set μ := S / n with hμ
  have h : ∑ i, (x i - μ) * (x i - μ) = ∑ i, x i * x i - 2 * μ * S + n * (μ * μ) := by
    have e : ∀ i, (x i - μ) * (x i - μ) = x i * x i - 2 * μ * x i + μ * μ := fun i => by ring
    simp only [e, Finset.sum_add_distrib, Finset.sum_sub_distrib, ← Finset.mul_sum, Finset.sum_const,
      Finset.card_univ, Fintype.card_fin, nsmul_eq_mul, hS]
    ring
  rw [h, hμ]
  field_simp
  ring

end Cert.Lib

end
-- ==== Proof.BatchNormSpec.lean ====
/-
  Batch normalization over the columns of a 40000 × 128 array of extended reals, in the two arrangements the two
  programs use, and their agreement on real arrays.

  For a column j of an array y:  S1 = Σ_k y(k,j),  S2 = Σ_k y(k,j)²,  n = 40000.
    * one arrangement takes  mean = S1 / n  and  variance = S2 / n - mean · mean;
    * the other takes  mean = (0 + S1) / n  and  variance = (0 + Σ_k (y(k,j) - mean)(y(k,j) - mean)) / n.
  The means agree always; the variances agree when every entry of the column is a real number (the variance identity,
  which fails at infinities).  Both then normalize alike:  max( (γ_j (y_i - mean_j)) · rsqrt(var_j + ε) + β_j , 0 ).
-/
import Idealize.ShloMosaic.PureOps.Ideal
import Idealize.ShloMosaic.Lib.ValueIdx
import proofs.«109631_j1623497638173_1_alg».proof.Proof.RealSums

noncomputable section

namespace Cert.Spec

open Idealize.ShloMosaic Idealize.ShloMosaic.ValueIdx Cert.Lib

/-- The float word of +0.0 denotes 0. -/
theorem ofBits_zero : Ideal.ofBits .f32 0x00000000#32 = 0 := by
  simp [Ideal.ofBits, Ideal.ieee]

/-- The float word of 40000.0 denotes the real 40000. -/
theorem ofBits_n : Ideal.ofBits .f32 0x471C4000#32 = ((40000 : ℝ) : EReal) := by
  simp [Ideal.ofBits, Ideal.ieee, -EReal.coe_mul]; norm_num

/-- The arrays' shape. -/
abbrev Sh : Shape := ⟨2, ![40000, 128]⟩

/-- The sum of column `j`. -/
def colSum (y : Sh.Idx → EReal) (j : Fin 128) : EReal := ∑ k : Fin 40000, y (ix2 k j)

/-- The column mean, as the sum over n. -/
def meanK (y : Sh.Idx → EReal) (j : Fin 128) : EReal :=
  Ideal.div (colSum y j) (Ideal.ofBits .f32 0x471C4000#32)

/-- The column variance as the mean of the squares less the square of the mean. -/
def varK (y : Sh.Idx → EReal) (j : Fin 128) : EReal :=
  Ideal.div (colSum (fun i => y i * y i) j) (Ideal.ofBits .f32 0x471C4000#32) - meanK y j * meanK y j

/-- The column mean, as zero plus the sum, over n. -/
def meanR (y : Sh.Idx → EReal) (j : Fin 128) : EReal :=
  Ideal.div (Ideal.ofBits .f32 0x00000000#32 + colSum y j) (Ideal.ofBits .f32 0x471C4000#32)

/-- The column variance as the mean of the squared deviations. -/
def varR (y : Sh.Idx → EReal) (j : Fin 128) : EReal :=
  Ideal.div (Ideal.ofBits .f32 0x00000000#32 + colSum (fun i => (y i - meanR y j) * (y i - meanR y j)) j)
    (Ideal.ofBits .f32 0x471C4000#32)

theorem mean_eq (y : Sh.Idx → EReal) (j : Fin 128) : meanK y j = meanR y j := by
  unfold meanK meanR; rw [ofBits_zero, zero_add]

/-- The variance identity over 40000 real samples, the quotients written as products with 1/40000. -/
theorem variance_mul (x : Fin 40000 → ℝ) :
    (∑ k, (x k - (∑ k, x k) * (1 / 40000)) * (x k - (∑ k, x k) * (1 / 40000))) * (1 / 40000)
      = (∑ k, x k * x k) * (1 / 40000) - ((∑ k, x k) * (1 / 40000)) * ((∑ k, x k) * (1 / 40000)) := by
  have key := variance_real (n := 40000) (by norm_num) x
  simp only [Nat.cast_ofNat] at key
  simpa only [mul_one_div] using key

/-- On a real array the two variances agree. -/
theorem var_eq (y : Sh.Idx → EReal) (hy : ∀ i, IsReal (y i)) (j : Fin 128) : varK y j = varR y j := by
  obtain ⟨g, hg⟩ := exists_real_family y hy
  have hc : (40000 : ℝ) ≠ 0 := by norm_num
  have hm : meanR y j = (((∑ k : Fin 40000, g (ix2 k j)) * (1 / 40000) : ℝ) : EReal) := by
    unfold meanR colSum
    rw [ofBits_zero, zero_add, ofBits_n, Ideal.div_coe hc]
    simp only [hg]
    rw [coe_sum, ← EReal.coe_mul]
  have e1 : ∑ k : Fin 40000, y (ix2 k j) * y (ix2 k j)
      = ((∑ k : Fin 40000, g (ix2 k j) * g (ix2 k j) : ℝ) : EReal) := by
    simp only [hg, ← EReal.coe_mul]; exact coe_sum _ _
  have e2 : ∑ k : Fin 40000, (y (ix2 k j) - meanR y j) * (y (ix2 k j) - meanR y j)
      = ((∑ k : Fin 40000, (g (ix2 k j) - (∑ k : Fin 40000, g (ix2 k j)) * (1 / 40000))
          * (g (ix2 k j) - (∑ k : Fin 40000, g (ix2 k j)) * (1 / 40000)) : ℝ) : EReal) := by
    rw [hm]; simp only [hg, ← EReal.coe_sub, ← EReal.coe_mul]; exact coe_sum _ _
  have lhs : varK y j = ((∑ k : Fin 40000, g (ix2 k j) * g (ix2 k j)) * (1 / 40000)
      - ((∑ k : Fin 40000, g (ix2 k j)) * (1 / 40000)) * ((∑ k : Fin 40000, g (ix2 k j)) * (1 / 40000)) : ℝ) := by
    unfold varK
    rw [mean_eq, hm, ofBits_n, Ideal.div_coe hc]
    show (∑ k : Fin 40000, y (ix2 k j) * y (ix2 k j)) * _ - _ = _
    rw [e1, ← EReal.coe_mul, ← EReal.coe_mul, ← EReal.coe_sub]
  have rhs : varR y j = ((∑ k : Fin 40000, (g (ix2 k j) - (∑ k : Fin 40000, g (ix2 k j)) * (1 / 40000))
          * (g (ix2 k j) - (∑ k : Fin 40000, g (ix2 k j)) * (1 / 40000))) * (1 / 40000) : ℝ) := by
    unfold varR
    rw [ofBits_zero, zero_add, ofBits_n, Ideal.div_coe hc]
    show (∑ k : Fin 40000, (y (ix2 k j) - meanR y j) * (y (ix2 k j) - meanR y j)) * _ = _
    rw [e2, ← EReal.coe_mul]
  rw [lhs, rhs, variance_mul]

/-- The normalization of one entry from a column mean and variance. -/
def norm1 (μ v : Fin 128 → EReal) (y : Sh.Idx → EReal) (γ β : Fin 128 → EReal) (i : Sh.Idx) : EReal :=
  max (γ (i 1) * (y i - μ (i 1)) * Ideal.rsqrt (v (i 1) + Ideal.ofBits .f32 0x3727C5AC#32) + β (i 1))
    (Ideal.ofBits .f32 0x00000000#32)

/-- On a real array the two arrangements of batch normalization give one result. -/
theorem norm_eq (y : Sh.Idx → EReal) (hy : ∀ i, IsReal (y i)) (γ β : Fin 128 → EReal) :
    norm1 (meanK y) (varK y) y γ β = norm1 (meanR y) (varR y) y γ β := by
  have h1 : meanK y = meanR y := funext (mean_eq y)
  have h2 : varK y = varR y := funext (var_eq y hy)
  rw [h1, h2]

end Cert.Spec

end
-- ==== Proof.KernelValue.lean ====
/-
  The idealized kernel's result as batch normalization of the aggregated features.
  Region 0 leaves h = features · weights; the host lines aggregate it into `out`; region 1 leaves the column sums of
  `out` and of its squares; the host lines turn them into mean = S1 / n and variance = S2 / n - mean · mean and lay the
  scale and shift out as rows; region 2 normalizes `out` by them.  Each boundary's buffers are read back through the
  segments to the launch memory's argument arrays a0 … a5.
-/
import proofs.«109631_j1623497638173_1_alg».proof.Proof.HostGlue
import proofs.«109631_j1623497638173_1_alg».proof.Proof.MatmulValue
import proofs.«109631_j1623497638173_1_alg».proof.Proof.ColumnSums
import proofs.«109631_j1623497638173_1_alg».proof.Proof.NormalizeValue
import proofs.«109631_j1623497638173_1_alg».proof.Proof.BatchNormSpec

set_option maxRecDepth 16384
set_option maxHeartbeats 1000000

noncomputable section

namespace Cert.KernelIdeal.KernelValue

open Cert.KernelIdeal Cert.KernelIdeal.Gen Cert.KernelIdeal.Glue
open Idealize.ShloMosaic Idealize.ShloMosaic.TcCoe Idealize.SL.Sem Idealize.ShloMosaic.StableHlo
open Idealize.ShloMosaic.ValueIdx Cert.Spec

variable (m : (ℓ : Loc nD τ sig) → Buf (Elt Ideal) ℓ) (ρ : Dev nD → PrngReg) (c : Dev nD)
variable (a0 : S40000x128.Idx → EReal) (a1 : IVec S2x640000 32) (a2 : S128x128.Idx → EReal) (a3 a4 a5 : S128.Idx → EReal)

/-- The array the kernel normalizes: the aggregation of the projected features. -/
abbrev outK : Sh.Idx → EReal := aggOf (MatmulValue.matProd a0 a2) a1 a3

variable (h0 : m ((c : Thread nD τ).loc main_arg0) = a0) (h1 : m ((c : Thread nD τ).loc main_arg1) = a1)
  (h2 : m ((c : Thread nD τ).loc main_arg2) = a2) (h3 : m ((c : Thread nD τ).loc main_arg3) = a3)
  (h4 : m ((c : Thread nD τ).loc main_arg4) = a4) (h5 : m ((c : Thread nD τ).loc main_arg5) = a5)

include h0 h2 in
/-- Region 0 leaves the projected features. -/
theorem W2_v4 : W2 m ρ c (Proc.devRef .tc main_v4) = MatmulValue.matProd a0 a2 :=
  (W2_arr m ρ c 2).trans ((MatmulValue.matmul_arr (V1 m ρ) c).trans
    (congrArg₂ MatmulValue.matProd ((W1_arg0 m ρ c).trans h0) ((W1_arg2 m ρ c).trans h2)))

include h0 h1 h2 h3 in
/-- Region 1 is entered with the aggregated features in its input array. -/
theorem V3_v47 : W3 m ρ c (Proc.devRef .tc main_v47) = outK a0 a1 a2 a3 := by
  rw [W3_v47, W2_v4 m ρ c a0 a2 h0 h2, h1, h3]

include h0 h1 h2 h3 in
theorem W4_v47 : W4 m ρ c (Proc.devRef .tc main_v47) = outK a0 a1 a2 a3 :=
  ((W4_arr m ρ c 0).trans (((dat1 (V3 m ρ) c).arrAt_in 0 rfl _).trans (A_eq1 (V3 m ρ) c 0))).trans
    (V3_v47 m ρ c a0 a1 a2 a3 h0 h1 h2 h3)

include h0 h1 h2 h3 in
/-- Region 1 leaves the column sums. -/
theorem W4_sum : W4 m ρ c (Proc.devRef .tc main_v48_0)
    = fun j : S1x128.Idx => ∑ i : Fin 40000, outK a0 a1 a2 a3 (ix2 i (j 1)) :=
  (W4_arr m ρ c 1).trans (ColumnSums.colsum_arr (V3 m ρ) c (outK a0 a1 a2 a3) (V3_v47 m ρ c a0 a1 a2 a3 h0 h1 h2 h3))

include h0 h1 h2 h3 in
/-- Region 1 leaves the column sums of the squares. -/
theorem W4_sumsq : W4 m ρ c (Proc.devRef .tc main_v48_1)
    = fun j : S1x128.Idx => ∑ i : Fin 40000, outK a0 a1 a2 a3 (ix2 i (j 1)) * outK a0 a1 a2 a3 (ix2 i (j 1)) :=
  (W4_arr m ρ c 2).trans (ColumnSums.colsumsq_arr (V3 m ρ) c (outK a0 a1 a2 a3) (V3_v47 m ρ c a0 a1 a2 a3 h0 h1 h2 h3))

include h4 in
theorem W4_arg4 : W4 m ρ c (Proc.devRef .tc main_arg4) = a4 :=
  (W4_of_ne m ρ c main_arg4 (by decide)).trans
    ((show StableHlo.after hostOps1 (W2 m ρ c) (Proc.devRef .tc main_arg4) = W2 m ρ c (Proc.devRef .tc main_arg4) by host_keeps).trans
      ((W2_arg4 m ρ c).trans h4))

include h5 in
theorem W4_arg5 : W4 m ρ c (Proc.devRef .tc main_arg5) = a5 :=
  (W4_of_ne m ρ c main_arg5 (by decide)).trans
    ((show StableHlo.after hostOps1 (W2 m ρ c) (Proc.devRef .tc main_arg5) = W2 m ρ c (Proc.devRef .tc main_arg5) by host_keeps).trans
      ((W2_arg5 m ρ c).trans h5))

/-! ## Region 2's entry -/

/-- A scalar constant broadcast to a row, read at an entry. -/
theorem bcast_const (w : BitVec 32) (r : S1x128.Idx) :
    broadcastInDim S1x128 ![] bcast_S_S1x128 (constant (F := Ideal) S_ .f32 w) r = Ideal.ofBits .f32 w :=
  (broadcastInDim_apply _ bcast_S_S1x128 (constant (F := Ideal) S_ .f32 w) r (fun a => a.elim0) (fun a => a.elim0)).trans rfl

/-- A length-128 array reshaped to a row, read at an entry. -/
theorem row_apply (a : S128.Idx → EReal) (r : S1x128.Idx) :
    shapeCast S1x128 a shapeCasts_S128_S1x128 r = a (ix1 (r 1)) :=
  shapeCast_apply a shapeCasts_S128_S1x128 r (ix1 (r 1))
    (by rewrite [Shape.rowMajor_val_one, Shape.rowMajor_val_two]
        have h0 : (r 0).val < 1 := (r 0).isLt
        show (r 1).val = (r 0).val * 128 + (r 1).val
        omega)

include h0 h1 h2 h3 in
theorem V5_v47 : W5 m ρ c (Proc.devRef .tc main_v47) = outK a0 a1 a2 a3 :=
  (show StableHlo.after hostOps2 (W4 m ρ c) (Proc.devRef .tc main_v47) = W4 m ρ c (Proc.devRef .tc main_v47) by host_keeps).trans
    (W4_v47 m ρ c a0 a1 a2 a3 h0 h1 h2 h3)

include h0 h1 h2 h3 in
/-- The mean row region 2 reads. -/
theorem V5_v50 : W5 m ρ c (Proc.devRef .tc main_v50) = fun r : S1x128.Idx => meanK (outK a0 a1 a2 a3) (r 1) := by
  show StableHlo.after hostOps2 (W4 m ρ c) (Proc.devRef .tc main_v50) = _
  after_results
  rw [W4_sum m ρ c a0 a1 a2 a3 h0 h1 h2 h3]
  funext r
  show Ideal.div _ (broadcastInDim S1x128 ![] bcast_S_S1x128 (constant (F := Ideal) S_ .f32 0x471C4000#32) r) = _
  rw [bcast_const]
  rfl

include h0 h1 h2 h3 in
/-- The variance row region 2 reads. -/
theorem V5_v54 : W5 m ρ c (Proc.devRef .tc main_v54) = fun r : S1x128.Idx => varK (outK a0 a1 a2 a3) (r 1) := by
  show StableHlo.after hostOps2 (W4 m ρ c) (Proc.devRef .tc main_v54) = _
  after_results
  rw [W4_sum m ρ c a0 a1 a2 a3 h0 h1 h2 h3, W4_sumsq m ρ c a0 a1 a2 a3 h0 h1 h2 h3]
  funext r
  show Ideal.div _ (broadcastInDim S1x128 ![] bcast_S_S1x128 (constant (F := Ideal) S_ .f32 0x471C4000#32) r)
      - Ideal.div _ (broadcastInDim S1x128 ![] bcast_S_S1x128 (constant (F := Ideal) S_ .f32 0x471C4000#32) r)
        * Ideal.div _ (broadcastInDim S1x128 ![] bcast_S_S1x128 (constant (F := Ideal) S_ .f32 0x471C4000#32) r) = _
  rw [bcast_const]
  rfl

include h4 in
/-- The scale row region 2 reads. -/
theorem V5_v55 : W5 m ρ c (Proc.devRef .tc main_v55) = fun r : S1x128.Idx => a4 (ix1 (r 1)) := by
  show StableHlo.after hostOps2 (W4 m ρ c) (Proc.devRef .tc main_v55) = _
  after_results
  rw [W4_arg4 m ρ c a4 h4]
  funext r
  exact row_apply a4 r

include h5 in
/-- The shift row region 2 reads. -/
theorem V5_v56 : W5 m ρ c (Proc.devRef .tc main_v56) = fun r : S1x128.Idx => a5 (ix1 (r 1)) := by
  show StableHlo.after hostOps2 (W4 m ρ c) (Proc.devRef .tc main_v56) = _
  after_results
  rw [W4_arg5 m ρ c a5 h5]
  funext r
  exact row_apply a5 r

include h0 h1 h2 h3 h4 h5 in
/-- The kernel's result: the aggregated features normalized by mean = S1 / n and variance = S2 / n - mean · mean. -/
theorem kernel_value : W6 m ρ c (Proc.devRef .tc main_v57)
    = norm1 (meanK (outK a0 a1 a2 a3)) (varK (outK a0 a1 a2 a3)) (outK a0 a1 a2 a3) (fun j => a4 (ix1 j)) (fun j => a5 (ix1 j)) :=
  (W6_arr m ρ c 5).trans ((NormalizeValue.normalize_arr_of (V5 m ρ) c (outK a0 a1 a2 a3)
      (fun r : S1x128.Idx => meanK (outK a0 a1 a2 a3) (r 1)) (fun r : S1x128.Idx => varK (outK a0 a1 a2 a3) (r 1))
      (fun r : S1x128.Idx => a4 (ix1 (r 1))) (fun r : S1x128.Idx => a5 (ix1 (r 1)))
      (V5_v47 m ρ c a0 a1 a2 a3 h0 h1 h2 h3) (V5_v50 m ρ c a0 a1 a2 a3 h0 h1 h2 h3) (V5_v54 m ρ c a0 a1 a2 a3 h0 h1 h2 h3)
      (V5_v55 m ρ c a4 h4) (V5_v56 m ρ c a5 h5)).trans (funext fun i => rfl))

end Cert.KernelIdeal.KernelValue

end
-- ==== Proof.RefValue.lean ====
/-
  The reference program's result as batch normalization of its pre-normalization array.
  Writing `out` for the array the reference normalizes (the graph convolution's output, bias added), the reference's
  column mean is (0 + Σ_k out(k,j)) / n, its column variance (0 + Σ_k (out(k,j) - mean_j)²) / n, and its result
  max( (γ_j (out_i - mean_j)) · rsqrt(var_j + ε) + β_j , 0 ): each stage read at an index, the composed index maps
  identified with the coordinates they pick.
-/
import proofs.«109631_j1623497638173_1_alg».proof.Proof.Gen.ReferenceIdeal.Read
import proofs.«109631_j1623497638173_1_alg».proof.Proof.BatchNormSpec

set_option maxHeartbeats 400000

noncomputable section

namespace Cert.ReferenceIdeal.RefValue

open Cert.ReferenceIdeal Cert.ReferenceIdeal.Read Idealize.ShloMosaic Idealize.ShloMosaic.ValueIdx Cert.Spec

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 x4 x5 : (⟨S128, .f32⟩ : BufTy).Contents (Elt Ideal))

/-- A length-128 array as a function of its one coordinate. -/
abbrev vec (x : (⟨S128, .f32⟩ : BufTy).Contents (Elt Ideal)) : Fin 128 → EReal := fun j => x (ix1 j)

/-- The array the reference normalizes. -/
abbrev out : Sh.Idx → EReal := val_main_v47 (F := Ideal) x0 x1 x2 x3

/-- The reference's column mean. -/
theorem mean_apply (j : S128.Idx) : val_main_v50 (F := Ideal) x0 x1 x2 x3 j = meanR (out x0 x1 x2 x3) (j 0) := by
  rw [val_main_v50_apply, val_main_v48_apply, val_main_v49_apply, val_main_cst_9_apply, val_main_cst_8_apply]
  simp only [Ideal.hostDivf_def, Ideal.ofBits_def]
  unfold meanR colSum
  refine congrArg (fun s => Ideal.div (Ideal.ofBits .f32 0x00000000#32 + s) (Ideal.ofBits .f32 0x471C4000#32))
    (Finset.sum_congr rfl fun k _ => ?_)
  have e : idx_main_v48 j k = (ix2 k (j 0) : S40000x128.Idx) := by
    funext a; match a with | ⟨0, _⟩ => rfl | ⟨1, _⟩ => rfl
  rw [e]

/-- The reference's column variance. -/
theorem var_apply (j : S128.Idx) : val_main_v57 (F := Ideal) x0 x1 x2 x3 j = varR (out x0 x1 x2 x3) (j 0) := by
  rw [val_main_v57_apply, val_main_v55_apply, val_main_v56_apply, val_main_cst_11_apply, val_main_cst_10_apply]
  simp only [Ideal.hostDivf_def, Ideal.ofBits_def]
  unfold varR colSum
  refine congrArg (fun s => Ideal.div (Ideal.ofBits .f32 0x00000000#32 + s) (Ideal.ofBits .f32 0x471C4000#32))
    (Finset.sum_congr rfl fun k _ => ?_)
  have e : idx_main_v55 j k = (ix2 k (j 0) : S40000x128.Idx) := by
    funext a; match a with | ⟨0, _⟩ => rfl | ⟨1, _⟩ => rfl
  rw [e, val_main_v54_apply, val_main_v53_apply, val_main_v52_apply, val_main_v51_apply, mean_apply]
  rfl

theorem mean_idx (i : S40000x128.Idx) : idx_main_v58 (idx_main_v59 i) 0 = i 1 := rfl

theorem var_idx (i : S40000x128.Idx) : idx_main_v67 (idx_main_v68 i) 0 = i 1 := rfl

theorem gamma_idx (i : S40000x128.Idx) : idx_main_v61 (idx_main_v62 i) = ix1 (i 1) := by
  funext a; match a with | ⟨0, _⟩ => rfl

theorem beta_idx (i : S40000x128.Idx) : idx_main_v70 (idx_main_v71 i) = ix1 (i 1) := by
  funext a; match a with | ⟨0, _⟩ => rfl

/-- The reference's result is the normalization of `out` by its own column means and variances. -/
theorem ref_value : val_main_v73 (F := Ideal) x0 x1 x2 x3 x4 x5
    = norm1 (meanR (out x0 x1 x2 x3)) (varR (out x0 x1 x2 x3)) (out x0 x1 x2 x3) (vec x4) (vec x5) := by
  funext i
  rw [val_main_v73_apply, val_main_v72_apply, val_main_v69_apply, val_main_v63_apply, val_main_v62_apply,
    val_main_v61_apply, val_main_v60_apply, val_main_v59_apply, val_main_v58_apply, mean_apply, val_main_v68_apply,
    val_main_v67_apply, val_main_v66_apply, val_main_v65_apply, var_apply, val_main_v64_apply, val_main_cst_12_apply,
    val_main_v71_apply, val_main_v70_apply, val_main_call0_v0_apply, val_main_call0_cst_apply, gamma_idx, beta_idx]
  simp only [Ideal.maximumf_def, Ideal.addf_def, Ideal.mulf_def, Ideal.subf_def, Ideal.hostUnary_rsqrt_def,
    Ideal.ofBits_def]
  rfl

end Cert.ReferenceIdeal.RefValue

end
-- ==== Proof.AggReal.lean ====
/-
  The reference's array before normalization is a real number at every index when the float arguments are.

  The array is  agg + h · (dinv · dinv) + bias,  where h is the product of the features with the weights,
  deg counts (as a sum of ones) the updates that land on a row, plus one, dinv = 1 / √deg, the messages are
  rows of h picked at the source indices and scaled by two picked entries of dinv, and agg adds the messages
  that land on a row.  The index array is arbitrary: picking an entry of an array of reals gives a real
  whatever the index is, and the set of updates that land on an element is a finite set whatever the
  indices are.  A finite sum or product of reals is real; deg is a real ≥ 1 (a sum of ones over a finite
  set is a natural number), so 1 / √deg is real.
-/
import proofs.«109631_j1623497638173_1_alg».proof.Proof.Gen.ReferenceIdeal.Read
import proofs.«109631_j1623497638173_1_alg».proof.Proof.RealSums

noncomputable section

namespace Cert.ReferenceIdeal.AggReal

open Cert.Lib Cert.ReferenceIdeal Cert.ReferenceIdeal.Gen Cert.ReferenceIdeal.Read Idealize.ShloMosaic Idealize.ShloMosaic.TcCoe Idealize.SL.Sem Idealize.ShloMosaic.StableHlo

/-! ### The two constants -/

/-- The pattern of `1.0` denotes the real one. -/
theorem ofBits_one : Ideal.ofBits .f32 0x3F800000#32 = ((1 : ℝ) : EReal) := by
  simp [Ideal.ofBits, Ideal.ieee, -EReal.coe_mul]; norm_num

/-- The pattern of `+0.0` denotes the real zero. -/
theorem ofBits_zero : Ideal.ofBits .f32 0x00000000#32 = ((0 : ℝ) : EReal) := by
  rw [Ideal.ofBits_zero_f32]; rfl

/-! ### General facts: sums of ones, the reciprocal square root, picking, accumulating -/

/-- A sum of ones over a finite set is a real that is not negative. -/
theorem sum_ones_real {ι : Type*} (s : Finset ι) (f : ι → EReal) (hf : ∀ j, f j = ((1 : ℝ) : EReal)) :
    ∃ r : ℝ, 0 ≤ r ∧ ∑ j ∈ s, f j = (r : EReal) := by
  refine ⟨∑ _j ∈ s, (1 : ℝ), Finset.sum_nonneg fun _ _ => zero_le_one, ?_⟩
  rw [Finset.sum_congr rfl fun j _ => hf j]
  exact coe_sum s fun _ => (1 : ℝ)

/-- The reciprocal square root of a positive real is real. -/
theorem rsqrt_isReal {r : ℝ} (hr : 0 < r) : IsReal (Ideal.rsqrt (r : EReal)) := by
  rw [Ideal.rsqrt_coe, if_neg (not_lt.mpr hr.le), if_neg hr.ne']
  exact isReal_coe _

/-- An accumulating scatter into reals of reals is real at every element: the element plus a finite sum. -/
theorem scatterAdd_isReal {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  have key : ∀ t : Finset su.Idx, IsReal (x i + ∑ j ∈ t, upd j) := fun t =>
    (hx i).add (isReal_sum t upd fun j _ => hu j)
  exact key _

/-- An accumulating scatter of ones into zeros is, at every element, a real that is not negative. -/
theorem scatterAdd_ones {s si su : Shape} {w : Nat} (d : ScatterDims s si su) (x : FVec Ideal s .f32) (idx : IVec si w)
    (upd : FVec Ideal su .f32) (hx : ∀ i, x i = ((0 : ℝ) : EReal)) (hu : ∀ j, upd j = ((1 : ℝ) : EReal)) (i : s.Idx) :
    ∃ r : ℝ, 0 ≤ r ∧ Host.scatterAdd d x idx upd i = (r : EReal) := by
  have key : ∀ t : Finset su.Idx, ∃ r : ℝ, 0 ≤ r ∧ x i + ∑ j ∈ t, upd j = (r : EReal) := fun t => by
    obtain ⟨r, hr, e⟩ := sum_ones_real t upd hu
    exact ⟨r, hr, by rw [hx i, e, EReal.coe_zero, zero_add]⟩
  exact key _

/-- A gather from reals is real at every element: each element is one of the operand's. -/
theorem gather_isReal {s si t : Shape} {w : Nat} (d : GatherDims s si t) (x : s.Idx → EReal) (idx : IVec si w)
    (hx : ∀ i, IsReal (x i)) (j : t.Idx) : IsReal (Host.gather d x idx j) :=
  hx _

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))

/-! ### h = features · weights -/

theorem v4_isReal (h0 : ∀ i, IsReal (x0 i)) (h2 : ∀ i, IsReal (x2 i)) (i : S40000x128.Idx) :
    IsReal (val_main_v4 (F := Ideal) x0 x2 i) := by
  rw [val_main_v4_apply]
  exact isReal_sum _ _ fun k _ => (h0 _).mul (h2 _)

/-! ### deg, a real ≥ 1, and dinv = 1 / √deg -/

theorem v5_one (j : S640000.Idx) : val_main_v5 (F := Ideal) j = ((1 : ℝ) : EReal) := by
  rw [val_main_v5_apply, val_main_cst_apply, Ideal.ofBits_def, ofBits_one]

theorem v6_zero (i : S40000.Idx) : val_main_v6 (F := Ideal) i = ((0 : ℝ) : EReal) := by
  rw [val_main_v6_apply, val_main_cst_0_apply, Ideal.ofBits_def, ofBits_zero]

theorem v9_one (i : S40000.Idx) : val_main_v9 (F := Ideal) i = ((1 : ℝ) : EReal) := by
  rw [val_main_v9_apply, val_main_cst_1_apply, Ideal.ofBits_def, ofBits_one]

theorem v10_pos (i : S40000.Idx) : ∃ r : ℝ, 0 < r ∧ val_main_v10 (F := Ideal) x1 i = (r : EReal) := by
  obtain ⟨r, hr, e⟩ : ∃ r : ℝ, 0 ≤ r ∧ val_main_v8 (F := Ideal) x1 i = (r : EReal) := by
    unfold val_main_v8
    exact scatterAdd_ones _ _ _ _ v6_zero v5_one i
  refine ⟨r + 1, by linarith, ?_⟩
  rw [val_main_v10_apply, Ideal.addf_def, e, v9_one, EReal.coe_add]

theorem v11_isReal (i : S40000.Idx) : IsReal (val_main_v11 (F := Ideal) x1 i) := by
  obtain ⟨r, hr, e⟩ := v10_pos x1 i
  rw [val_main_v11_apply, Ideal.hostUnary_rsqrt_def, e]
  exact rsqrt_isReal hr

/-! ### The edge weights: two picked entries of dinv, multiplied -/

theorem v18_isReal (j : S640000.Idx) : IsReal (val_main_v18 (F := Ideal) x1 j) := by
  unfold val_main_v18
  exact gather_isReal _ _ _ (v11_isReal x1) j

theorem v25_isReal (j : S640000.Idx) : IsReal (val_main_v25 (F := Ideal) x1 j) := by
  unfold val_main_v25
  exact gather_isReal _ _ _ (v11_isReal x1) j

theorem v26_isReal (j : S640000.Idx) : IsReal (val_main_v26 (F := Ideal) x1 j) := by
  rw [val_main_v26_apply, Ideal.mulf_def]
  exact (v18_isReal x1 j).mul (v25_isReal x1 j)

/-! ### The messages: picked rows of h, scaled -/

theorem v33_isReal (h0 : ∀ i, IsReal (x0 i)) (h2 : ∀ i, IsReal (x2 i)) (j : S640000x128.Idx) :
    IsReal (val_main_v33 (F := Ideal) x0 x1 x2 j) := by
  unfold val_main_v33
  exact gather_isReal _ _ _ (v4_isReal x0 x2 h0 h2) j

theorem v35_isReal (j : S640000x128.Idx) : IsReal (val_main_v35 (F := Ideal) x1 j) := by
  rw [val_main_v35_apply, val_main_v34_apply]
  exact v26_isReal x1 _

theorem v36_isReal (h0 : ∀ i, IsReal (x0 i)) (h2 : ∀ i, IsReal (x2 i)) (j : S640000x128.Idx) :
    IsReal (val_main_v36 (F := Ideal) x0 x1 x2 j) := by
  rw [val_main_v36_apply, Ideal.mulf_def]
  exact (v33_isReal x0 x1 x2 h0 h2 j).mul (v35_isReal x1 j)

/-! ### agg: the messages that land on a row, added to zero -/

theorem v37_isReal (i : S40000x128.Idx) : IsReal (val_main_v37 (F := Ideal) i) := by
  rw [val_main_v37_apply, val_main_cst_7_apply, Ideal.ofBits_def, ofBits_zero]
  exact isReal_coe _

theorem v39_isReal (h0 : ∀ i, IsReal (x0 i)) (h2 : ∀ i, IsReal (x2 i)) (i : S40000x128.Idx) :
    IsReal (val_main_v39 (F := Ideal) x0 x1 x2 i) := by
  unfold val_main_v39
  exact scatterAdd_isReal _ _ _ _ v37_isReal (v36_isReal x0 x1 x2 h0 h2) i

/-! ### The self term h · (dinv · dinv), the bias, and the sum of the three -/

theorem v42_isReal (i : S40000x128.Idx) : IsReal (val_main_v42 (F := Ideal) x1 i) := by
  rw [val_main_v42_apply, val_main_v41_apply, val_main_v40_apply, Ideal.mulf_def]
  exact (v11_isReal x1 _).mul (v11_isReal x1 _)

theorem v43_isReal (h0 : ∀ i, IsReal (x0 i)) (h2 : ∀ i, IsReal (x2 i)) (i : S40000x128.Idx) :
    IsReal (val_main_v43 (F := Ideal) x0 x1 x2 i) := by
  rw [val_main_v43_apply, Ideal.mulf_def]
  exact (v4_isReal x0 x2 h0 h2 i).mul (v42_isReal x1 i)

theorem v44_isReal (h0 : ∀ i, IsReal (x0 i)) (h2 : ∀ i, IsReal (x2 i)) (i : S40000x128.Idx) :
    IsReal (val_main_v44 (F := Ideal) x0 x1 x2 i) := by
  rw [val_main_v44_apply, Ideal.addf_def]
  exact (v39_isReal x0 x1 x2 h0 h2 i).add (v43_isReal x0 x1 x2 h0 h2 i)

theorem v46_isReal (h3 : ∀ i, IsReal (x3 i)) (i : S40000x128.Idx) : IsReal (val_main_v46 (F := Ideal) x3 i) := by
  rw [val_main_v46_apply, val_main_v45_apply]
  exact h3 _

theorem v47_isReal (h0 : ∀ i, IsReal (x0 i)) (h2 : ∀ i, IsReal (x2 i)) (h3 : ∀ i, IsReal (x3 i)) (i : S40000x128.Idx) :
    IsReal (val_main_v47 (F := Ideal) x0 x1 x2 x3 i) := by
  rw [val_main_v47_apply, Ideal.addf_def]
  exact (v44_isReal x0 x1 x2 h0 h2 i).add (v46_isReal x3 h3 i)

/-- The reference's array before normalization is real at every index when the float arguments are. -/
theorem out_isReal (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (h0 : ∀ i, IsReal (x0 i)) (h2 : ∀ i, IsReal (x2 i)) (h3 : ∀ i, IsReal (x3 i)) :
    ∀ i, IsReal (Cert.ReferenceIdeal.Read.val_main_v47 (F := Ideal) x0 x1 x2 x3 i) :=
  fun i => v47_isReal x0 x1 x2 x3 h0 h2 h3 i

end Cert.ReferenceIdeal.AggReal

end
-- ==== Proof.Bridge.lean ====
/-
  The two programs compute one function.
  Both aggregate the SAME projected features (a kernel matrix product into a zero accumulator and the host's product are
  the same sum over the contracted axis), by the same host operations; the array they normalize is real at every index
  when the float arguments are, whatever the edge index holds; on a real array the variance taken as
  mean of squares less the squared mean and the variance taken as mean of squared deviations agree.
-/
import proofs.«109631_j1623497638173_1_alg».proof.Proof.KernelValue
import proofs.«109631_j1623497638173_1_alg».proof.Proof.RefValue
import proofs.«109631_j1623497638173_1_alg».proof.Proof.AggReal

set_option maxHeartbeats 1000000

noncomputable section

namespace Cert.Proof.Bridge

open Idealize.ShloMosaic Idealize.ShloMosaic.ValueIdx Cert.Spec Cert.Lib

variable (a0 : (⟨Cert.ReferenceIdeal.S40000x128, .f32⟩ : BufTy).Contents (Elt Ideal)) (a1 : (⟨Cert.ReferenceIdeal.S2x640000, .i32⟩ : BufTy).Contents (Elt Ideal))
  (a2 : (⟨Cert.ReferenceIdeal.S128x128, .f32⟩ : BufTy).Contents (Elt Ideal)) (a3 a4 a5 : (⟨Cert.ReferenceIdeal.S128, .f32⟩ : BufTy).Contents (Elt Ideal))

/-- The host's product of the features with the weights is the sum over the contracted axis. -/
theorem ref_feat : Cert.ReferenceIdeal.Read.val_main_v4 (F := Ideal) a0 a2 = Cert.KernelIdeal.MatmulValue.matProd a0 a2 := by
  funext i
  rw [Cert.ReferenceIdeal.Read.val_main_v4_apply]
  refine Finset.sum_congr rfl fun k _ => ?_
  have el : Cert.ReferenceIdeal.Read.lidx_main_v4 i k = (ix2 (i 0) k : Cert.ReferenceIdeal.S40000x128.Idx) := by
    funext a; match a with | ⟨0, _⟩ => rfl | ⟨1, _⟩ => rfl
  have er : Cert.ReferenceIdeal.Read.ridx_main_v4 i k = (ix2 k (i 1) : Cert.ReferenceIdeal.S128x128.Idx) := by
    funext a; match a with | ⟨0, _⟩ => rfl | ⟨1, _⟩ => rfl
  rw [el, er]

/-- The array the kernel normalizes is the array the reference normalizes. -/
theorem out_eq : Cert.KernelIdeal.KernelValue.outK a0 a1 a2 a3 = Cert.ReferenceIdeal.Read.val_main_v47 (F := Ideal) a0 a1 a2 a3 :=
  ((Cert.KernelIdeal.Glue.ref_out_eq a0 a1 a2 a3).trans (congrArg (fun h => Cert.KernelIdeal.Glue.aggOf h a1 a3) (ref_feat a0 a2))).symm

/-- On real float arguments the kernel's normalization of its array is the reference's result. -/
theorem results_eq (h0 : ∀ i, IsReal (a0 i)) (h2 : ∀ i, IsReal (a2 i)) (h3 : ∀ i, IsReal (a3 i)) :
    norm1 (meanK (Cert.KernelIdeal.KernelValue.outK a0 a1 a2 a3)) (varK (Cert.KernelIdeal.KernelValue.outK a0 a1 a2 a3))
        (Cert.KernelIdeal.KernelValue.outK a0 a1 a2 a3) (fun j => a4 (ix1 j)) (fun j => a5 (ix1 j))
      = Cert.ReferenceIdeal.Read.val_main_v73 (F := Ideal) a0 a1 a2 a3 a4 a5 := by
  rw [Cert.ReferenceIdeal.RefValue.ref_value, out_eq]
  exact norm_eq _ (Cert.ReferenceIdeal.AggReal.out_isReal a0 a1 a2 a3 h0 h2 h3) _ _

end Cert.Proof.Bridge

end
-- ==== Proof.FiniteArgs.lean ====
/-
  The precondition read back: when the printed predicate on the arguments is true, every entry of the float
  arguments is a real number.

  The predicate is the conjunction, over the five float arguments, of "every entry x has |x| < +∞".  Each
  conjunct is a reduction by "and" of an array of comparisons into a single truth value; a reduction by "and"
  that is true met only true entries.  At an entry the comparison says  max x (-x) < ⊤  in the extended
  reals: at x = ⊥ and at x = ⊤ the left side is ⊤, so x is neither, and x is a real number.
-/
import proofs.«109631_j1623497638173_1_alg».proof.Pre_finite_inputs
import proofs.«109631_j1623497638173_1_alg».proof.Proof.RealSums
import Idealize.ShloMosaic.Lib.ReduceAll
import Idealize.ShloMosaic.Lib.Affine
import Idealize.ShloMosaic.Lib.Pipeline.Value
import Idealize.ShloMosaic.Lib.ValueIdx
import Idealize.ShloMosaic.PureOps.Ideal

noncomputable section

namespace Cert.Pre_finite_inputs.FiniteArgs

open Cert.Lib Idealize.ShloMosaic Cert.Pre_finite_inputs

/-- The result of a reduction over all axes has one index. -/
instance : Subsingleton S_.Idx := ⟨fun a b => funext fun d => d.elim0⟩

/-! ### One entry -/

/-- The pattern of `+inf` denotes `⊤`. -/
theorem ofBits_inf : Ideal.ofBits .f32 0x7F800000#32 = ⊤ := by
  simp [Ideal.ofBits, Ideal.ieee]

/-- An extended real whose absolute value is below `+inf` is a real number. -/
theorem isReal_of_abs_lt (y : EReal) (h : Ideal.cmp .olt (max y (-y)) (Ideal.ofBits .f32 0x7F800000#32) = 1#1) :
    IsReal y := by
  rw [ofBits_inf] at h
  induction y using EReal.rec with
  | bot => exfalso; simp [Ideal.cmp] at h
  | top => exfalso; simp [Ideal.cmp] at h
  | coe r => exact isReal_coe r

/-! ### One array -/

/-- An entry at which the comparison of the absolute value with the broadcast `+inf` is true is real. -/
theorem entry_isReal {s : Shape} (x : FVec Ideal s .f32) (dims : Fin S_.rank → Fin s.rank) (hb : S_.BroadcastsInDim s dims)
    (i : s.Idx) (h : cmpf .olt (Host.absf x) (broadcastInDim s dims hb (constant S_ .f32 0x7F800000#32)) i = 1#1) :
    IsReal (x i) :=
  isReal_of_abs_lt (x i) h

/-- "Every entry is below `+inf` in absolute value", as the reduction by "and" of the comparisons: when it is true
    every entry is real. -/
theorem array_isReal {s : Shape} {axes : List (Fin s.rank)} (x : FVec Ideal s .f32) (dims : Fin S_.rank → Fin s.rank)
    (hb : S_.BroadcastsInDim s dims) (init : IVec S_ 1) (hr : s.ReducesTo axes S_) (hu : 0 < S_.numel) (j : S_.Idx)
    (e : Host.reduce IntOp.andi (cmpf .olt (Host.absf x) (broadcastInDim s dims hb (constant S_ .f32 0x7F800000#32)))
          init hr hu j = 1#1) (i : s.Idx) : IsReal (x i) :=
  entry_isReal x dims hb i (Host.reduce_andi_all _ init hr hu j e i)

/-- A conjunction of two arrays of truth values that is true at an index: both are. -/
theorem andi_apply_eq_one {s : Shape} (p q : IVec s 1) (i : s.Idx) (h : andi p q i = 1#1) : p i = 1#1 ∧ q i = 1#1 :=
  IntOp.andi_eq_one.1 h

/-! ### The five arguments -/

variable [Cert.Pre_finite_inputs.Facts]

/-- When the predicate is true, every entry of each of the five float arguments is real. -/
theorem args_isReal_all (x0 : FVec Ideal S40000x128 .f32) (x1 : IVec S2x640000 32) (x2 : FVec Ideal S128x128 .f32)
    (x3 x4 x5 : FVec Ideal S128 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h' := congrFun h ValueIdx.ix0
  dsimp only [fn, fn_part1] at h'
  obtain ⟨h', e5⟩ := andi_apply_eq_one _ _ _ h'
  obtain ⟨h', e4⟩ := andi_apply_eq_one _ _ _ h'
  obtain ⟨h', e3⟩ := andi_apply_eq_one _ _ _ h'
  obtain ⟨e0, e2⟩ := andi_apply_eq_one _ _ _ h'
  exact ⟨array_isReal x0 _ _ _ _ _ _ e0, array_isReal x2 _ _ _ _ _ _ e2, array_isReal x3 _ _ _ _ _ _ e3,
    array_isReal x4 _ _ _ _ _ _ e4, array_isReal x5 _ _ _ _ _ _ e5⟩

/-- When the predicate is true, every entry of the features, of the weights and of the bias is real. -/
theorem args_isReal (x0 : FVec Ideal S40000x128 .f32) (x1 : IVec S2x640000 32) (x2 : FVec Ideal S128x128 .f32)
    (x3 x4 x5 : FVec Ideal S128 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) :=
  have a := args_isReal_all x0 x1 x2 x3 x4 x5 h
  ⟨a.1, a.2.1, a.2.2.1⟩

end Cert.Pre_finite_inputs.FiniteArgs

end
-- ==== Proof.lean ====
/-
  The certificate of a graph-convolution layer followed by batch normalization and a rectifier, computed by three
  kernel regions among host operations, against its jnp reference — equal as extended reals under finite float inputs.

  Both programs aggregate the same projected features h = x · W by the same host operations (degrees by a scatter-add of
  ones, their reciprocal square roots gathered at the two rows of the edge index, the scaled rows of h scatter-added, the
  self term and the bias), into an array `out`.  The kernel then takes the column sums S1 of `out` and S2 of its squares
  over a grid, mean = S1 / n, variance = S2 / n - mean · mean, and normalizes; the reference takes
  variance = mean of (out - mean)².  The two variances agree because every entry of `out` is a real number when the
  float arguments are, whatever the edge index holds (picking entries and adding finitely many of them keep reals real,
  and a degree is at least one); the rest of the normalization is operation for operation the same.

  Proof/KernelRun.lean names the kernel's result at the last segment boundary; Proof/MatmulValue.lean, ColumnSums.lean and
  NormalizeValue.lean read the three regions as whole-array functions; Proof/HostGlue.lean and KernelValue.lean read the
  host lines between them; Proof/RefValue.lean reads the reference; Proof/AggReal.lean and FiniteArgs.lean give the
  finiteness; Proof/BatchNormSpec.lean and RealSums.lean hold the algebra; Proof/Bridge.lean joins the two sides.
-/
import proofs.«109631_j1623497638173_1_alg».proof.Defs
import proofs.«109631_j1623497638173_1_alg».proof.Proof.Gen.Kernel
import proofs.«109631_j1623497638173_1_alg».proof.Proof.Gen.Kernel.Frame
import proofs.«109631_j1623497638173_1_alg».proof.Proof.Gen.KernelIdeal
import proofs.«109631_j1623497638173_1_alg».proof.Proof.Gen.KernelIdeal.Frame
import proofs.«109631_j1623497638173_1_alg».proof.Proof.Gen.ReferenceIdeal
import proofs.«109631_j1623497638173_1_alg».proof.Proof.Gen.ReferenceIdeal.Run
import proofs.«109631_j1623497638173_1_alg».proof.Proof.Gen.ReferenceIdeal.Read
import proofs.«109631_j1623497638173_1_alg».proof.Proof.Gen.Pre_finite_inputs
import proofs.«109631_j1623497638173_1_alg».proof.Proof.KernelRun
import proofs.«109631_j1623497638173_1_alg».proof.Proof.Bridge
import proofs.«109631_j1623497638173_1_alg».proof.Proof.FiniteArgs
import Idealize.ShloMosaic.Adequacy
import Idealize.ShloMosaic.Init

set_option maxHeartbeats 1000000

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the reference's function of the argument arrays in their result. -/
theorem algebraic : Cert.algebraic_KernelIdeal_ReferenceIdeal := by
  intro m ρ m' ρ' hpre hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run_main (F := Ideal) m ρ)
    have hr := Cert.Pre_finite_inputs.FiniteArgs.args_isReal _ _ _ _ _ _ (hpre c)
    exact (Cert.KernelIdeal.KernelValue.kernel_value m ρ c _ _ _ _ _ _ rfl rfl rfl rfl rfl rfl).trans
      (Bridge.results_eq _ _ _ _ _ _ hr.1 hr.2.1 hr.2.2)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v73_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
